-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048x128 : Shape := ⟨2, ![2048, 128]⟩
abbrev S8x128 : Shape := ⟨2, ![8, 128]⟩
abbrev S2048 : Shape := ⟨1, ![2048]⟩
abbrev S128x1 : Shape := ⟨2, ![128, 1]⟩
abbrev S1x8 : Shape := ⟨2, ![1, 8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x128 : S_.BroadcastsInDim S2048x128 (![] : Fin 0 → Fin S2048x128.rank)
  reducesTo_S2048x128_S_d0_1 : S2048x128.ReducesTo [0, 1] S_
  bcast_S_S8x128 : S_.BroadcastsInDim S8x128 (![] : Fin 0 → Fin S8x128.rank)
  reducesTo_S8x128_S_d0_1 : S8x128.ReducesTo [0, 1] S_
  bcast_S_S2048 : S_.BroadcastsInDim S2048 (![] : Fin 0 → Fin S2048.rank)
  reducesTo_S2048_S_d0 : S2048.ReducesTo [0] S_
  bcast_S_S128x1 : S_.BroadcastsInDim S128x1 (![] : Fin 0 → Fin S128x1.rank)
  reducesTo_S128x1_S_d0_1 : S128x1.ReducesTo [0, 1] S_
  bcast_S_S1x8 : S_.BroadcastsInDim S1x8 (![] : Fin 0 → Fin S1x8.rank)
  reducesTo_S1x8_S_d0_1 : S1x8.ReducesTo [0, 1] S_

variable [Facts]

def fn_part2 {F : FTy → Type} [FloatOps F] (main_arg7 : FVec F S1x8 .f32) (main_v33 : IVec S_ 1) : IVec S_ 1 :=
  let main_v34 : FVec F S1x8 .f32 := Host.absf main_arg7
  let main_cst_12 : FVec F S_ .f32 := constant S_ .f32 0x7F800000#32
  let main_v35 : FVec F S1x8 .f32 := broadcastInDim S1x8 ![] bcast_S_S1x8 main_cst_12
  let main_v36 : IVec S1x8 1 := cmpf .olt main_v34 main_v35
  let main_c_13 : IVec S_ 1 := constantI S_ 1 1#1
  let main_v37 : IVec S_ 1 := (fun x v => Host.reduce IntOp.andi x v reducesTo_S1x8_S_d0_1 h_S_) main_v36 main_c_13
  let main_v38 : IVec S_ 1 := andi main_v33 main_v37
  main_v38

def fn_part1 {F : FTy → Type} [FloatOps F] (main_arg4 : FVec F S8x128 .f32) (main_arg5 : FVec F S2048 .f32) (main_arg6 : FVec F S128x1 .f32) (main_arg7 : FVec F S1x8 .f32) (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S16384x2048 .f32) (main_arg1 : FVec F S2048x2048 .f32) (main_arg2 : FVec F S2048x128 .f32) (main_arg3 : FVec F S2048x128 .f32) (main_arg4 : FVec F S8x128 .f32) (main_arg5 : FVec F S2048 .f32) (main_arg6 : FVec F S128x1 .f32) (main_arg7 : FVec F S1x8 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_arg4 main_arg5 main_arg6 main_arg7 main_v13 main_v16
-- ==== Kernel.lean ====
abbrev S16384x2048 : Shape := ⟨2, ![16384, 2048]⟩
abbrev S2048x2048 : Shape := ⟨2, ![2048, 2048]⟩
abbrev S2048x128 : Shape := ⟨2, ![2048, 128]⟩
abbrev S8x128 : Shape := ⟨2, ![8, 128]⟩
abbrev S2048 : Shape := ⟨1, ![2048]⟩
abbrev S128x1 : Shape := ⟨2, ![128, 1]⟩
abbrev S1x8 : Shape := ⟨2, ![1, 8]⟩
abbrev S2048x256 : Shape := ⟨2, ![2048, 256]⟩
abbrev S128x2048 : Shape := ⟨2, ![128, 2048]⟩
abbrev S1x2048 : Shape := ⟨2, ![1, 2048]⟩
abbrev S1x128 : Shape := ⟨2, ![1, 128]⟩
abbrev S256x2048 : Shape := ⟨2, ![256, 2048]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S256x8 : Shape := ⟨2, ![256, 8]⟩

abbrev nBuf : Space → Nat
  | .hbm => 18
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x128, .f32⟩
  | .hbm, ⟨3, _⟩ => ⟨S2048x128, .f32⟩
  | .hbm, ⟨4, _⟩ => ⟨S8x128, .f32⟩
  | .hbm, ⟨5, _⟩ => ⟨S2048, .f32⟩
  | .hbm, ⟨6, _⟩ => ⟨S128x1, .f32⟩
  | .hbm, ⟨7, _⟩ => ⟨S1x8, .f32⟩
  | .hbm, ⟨8, _⟩ => ⟨S2048x2048, .f32⟩
  | .hbm, ⟨9, _⟩ => ⟨S2048x2048, .bf16⟩
  | .hbm, ⟨10, _⟩ => ⟨S2048x256, .f32⟩
  | .hbm, ⟨11, _⟩ => ⟨S2048x256, .bf16⟩
  | .hbm, ⟨12, _⟩ => ⟨S128x2048, .f32⟩
  | .hbm, ⟨13, _⟩ => ⟨S128x2048, .bf16⟩
  | .hbm, ⟨14, _⟩ => ⟨S8x128, .bf16⟩
  | .hbm, ⟨15, _⟩ => ⟨S1x2048, .f32⟩
  | .hbm, ⟨16, _⟩ => ⟨S1x128, .f32⟩
  | .hbm, ⟨17, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x256, .bf16⟩
  | .local _ .vmem, ⟨4, _⟩ => ⟨S128x2048, .bf16⟩
  | .local _ .vmem, ⟨5, _⟩ => ⟨S8x128, .bf16⟩
  | .local _ .vmem, ⟨6, _⟩ => ⟨S1x2048, .f32⟩
  | .local _ .vmem, ⟨7, _⟩ => ⟨S1x128, .f32⟩
  | .local _ .vmem, ⟨8, _⟩ => ⟨S1x8, .f32⟩
  | .local _ .vmem, ⟨9, _⟩ => ⟨S256x2048, .f32⟩
  | .local _ .vmem, ⟨10, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S2048x2048_S2048x2048_1_0 : S2048x2048.Transposes [1, 0] S2048x2048
  bitsLt_bf16_f32 : FTy.bits .bf16 < FTy.bits .f32
  concatenates_S2048x128_S2048x128_S2048x256_d1 : Shape.Concatenates [S2048x128, S2048x128] S2048x256 1
  transposes_S2048x128_S128x2048_1_0 : S2048x128.Transposes [1, 0] S128x2048
  shapeCasts_S2048_S1x2048 : S2048.ShapeCasts S1x2048
  shapeCasts_S128x1_S1x128 : S128x1.ShapeCasts S1x128
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x8_S1x8_0_0 : ∀ a, (![0, 0] : Fin 2 → Nat) a + S1x8.size a ≤ S1x8.size a
  h_S1x8 : 0 < S1x8.numel
  slices_S256x256_o0_0_S256x128 : S256x256.Slices ![0, 0] S256x128
  slices_S256x256_o0_128_S256x128 : S256x256.Slices ![0, 128] S256x128
  broadcasts_S1x128_S256x128 : S1x128.Broadcasts S256x128
  reduces_S256x128_S256 : S256x128.Reduces [1] S256
  shapeCasts_S256_S256x1 : S256.ShapeCasts S256x1
  broadcasts_S256x1_S256x8 : S256x1.Broadcasts S256x8
  broadcasts_S1x8_S256x8 : S1x8.Broadcasts S256x8
  reduces_S256x8_S256 : S256x8.Reduces [1] S256
  broadcasts_S1x2048_S256x2048 : S1x2048.Broadcasts S256x2048
  dot_S256x2048_S2048x256_S256x256_1_0_0_1_n_n_wf : DotDims.WF S256x2048 S2048x256 S256x256 [1] [0] [0] [1] [] []
  dot_S256x8_S8x128_S256x128_1_0_0_1_n_n_wf : DotDims.WF S256x8 S8x128 S256x128 [1] [0] [0] [1] [] []
  dot_S256x128_S128x2048_S256x2048_1_0_0_1_n_n_wf : DotDims.WF S256x128 S128x2048 S256x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .bf16 = 32 ∨ (Rect.block (s := S2048x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x2048.size a
  hwx0_3 : ∀ i : grid0.Coords, EltTy.bits .bf16 = 32 ∨ (Rect.block (s := S128x2048) S128x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .bf16 = 32 ∨ (Rect.block (s := S8x128) S8x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S16384x2048.size a
  hwx0_8 : ∀ i : grid0.Coords, EltTy.bits .f32 = 32 ∨ (Rect.block (s := S16384x2048) S256x2048.size (cc0_transform_8 i) (hinb0_8 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x8_S8x128_S256x128_1_0_0_1_n_n : DotDims S256x8 S8x128 S256x128 where
  lhsContracting := [1]
  rhsContracting := [0]
  lhsNonContracting := [0]
  rhsNonContracting := [1]
  lhsBatch := []
  rhsBatch := []
  wf := dot_S256x8_S8x128_S256x128_1_0_0_1_n_n_wf
def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048x128 : Shape := ⟨2, ![2048, 128]⟩
abbrev S8x128 : Shape := ⟨2, ![8, 128]⟩
abbrev S2048 : Shape := ⟨1, ![2048]⟩
abbrev S128x1 : Shape := ⟨2, ![128, 1]⟩
abbrev S1x8 : Shape := ⟨2, ![1, 8]⟩
abbrev S16384x128 : Shape := ⟨2, ![16384, 128]⟩
abbrev S16384x1 : Shape := ⟨2, ![16384, 1]⟩
abbrev S16384x8 : Shape := ⟨2, ![16384, 8]⟩
abbrev S_ : Shape := ⟨0, ![]⟩
abbrev S16384 : Shape := ⟨1, ![16384]⟩
abbrev S128x2048 : Shape := ⟨2, ![128, 2048]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x128, .f32⟩
  | .hbm, ⟨3, _⟩ => ⟨S2048x128, .f32⟩
  | .hbm, ⟨4, _⟩ => ⟨S8x128, .f32⟩
  | .hbm, ⟨5, _⟩ => ⟨S2048, .f32⟩
  | .hbm, ⟨6, _⟩ => ⟨S128x1, .f32⟩
  | .hbm, ⟨7, _⟩ => ⟨S1x8, .f32⟩
  | .hbm, ⟨8, _⟩ => ⟨S16384x128, .f32⟩
  | .hbm, ⟨9, _⟩ => ⟨S16384x1, .f32⟩
  | .hbm, ⟨10, _⟩ => ⟨S16384x8, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384x1, .f32⟩
  | .hbm, ⟨17, _⟩ => ⟨S16384x8, .f32⟩
  | .hbm, ⟨18, _⟩ => ⟨S16384x8, .f32⟩
  | .hbm, ⟨19, _⟩ => ⟨S16384x8, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x8, .f32⟩
  | .hbm, ⟨24, _⟩ => ⟨S16384x8, .f32⟩
  | .hbm, ⟨25, _⟩ => ⟨S2048x2048, .f32⟩
  | .hbm, ⟨26, _⟩ => ⟨S16384x2048, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S128x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S1x2048, .f32⟩
  | .hbm, ⟨37, _⟩ => ⟨S16384x2048, .f32⟩
  | .hbm, ⟨38, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  reducesTo_S16384x8_S16384_d1 : S16384x8.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8_0_1 : S16384x1.BroadcastsInDim S16384x8 (![0, 1] : Fin 2 → Fin S16384x8.rank)
  transposes_S2048x2048_S2048x2048_1_0 : S2048x2048.Transposes [1, 0] S2048x2048
  transposes_S2048x128_S128x2048_1_0 : S2048x128.Transposes [1, 0] S128x2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x128_S16384x128_1_0_0_1_n_n_wf : DotDims.WF S16384x2048 S2048x128 S16384x128 [1] [0] [0] [1] [] []
  dot_S16384x128_S128x1_S16384x1_1_0_0_1_n_n_wf : DotDims.WF S16384x128 S128x1 S16384x1 [1] [0] [0] [1] [] []
  dot_S16384x1_S1x8_S16384x8_1_0_0_1_n_n_wf : DotDims.WF S16384x1 S1x8 S16384x8 [1] [0] [0] [1] [] []
  dot_S16384x2048_S2048x2048_S16384x2048_1_0_0_1_n_n_wf : DotDims.WF S16384x2048 S2048x2048 S16384x2048 [1] [0] [0] [1] [] []
  dot_S16384x8_S8x128_S16384x128_1_0_0_1_n_n_wf : DotDims.WF S16384x8 S8x128 S16384x128 [1] [0] [0] [1] [] []
  dot_S16384x128_S128x2048_S16384x2048_1_0_0_1_n_n_wf : DotDims.WF S16384x128 S128x2048 S16384x2048 [1] [0] [0] [1] [] []

variable [Facts₀]

def dot_S16384x2048_S2048x128_S16384x128_1_0_0_1_n_n : DotDims S16384x2048 S2048x128 S16384x128 where
  lhsContracting := [1]
  rhsContracting := [0]
  lhsNonContracting := [0]
  rhsNonContracting := [1]
  lhsBatch := []
  rhsBatch := []
  wf := dot_S16384x2048_S2048x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S16384x1_S1x8_S16384x8_1_0_0_1_n_n : DotDims S16384x1 S1x8 S16384x8 where
  lhsContracting := [1]
  rhsContracting := [0]
  lhsNonContracting := [0]
  rhsNonContracting := [1]
  lhsBatch := []
  rhsBatch := []
  wf := dot_S16384x1_S1x8_S16384x8_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x8_S8x128_S16384x128_1_0_0_1_n_n : DotDims S16384x8 S8x128 S16384x128 where
  lhsContracting := [1]
  rhsContracting := [0]
  lhsNonContracting := [0]
  rhsNonContracting := [1]
  lhsBatch := []
  rhsBatch := []
  wf := dot_S16384x8_S8x128_S16384x128_1_0_0_1_n_n_wf
def dot_S16384x128_S128x2048_S16384x2048_1_0_0_1_n_n : DotDims S16384x128 S128x2048 S16384x2048 where
  lhsContracting := [1]
  rhsContracting := [0]
  lhsNonContracting := [0]
  rhsNonContracting := [1]
  lhsBatch := []
  rhsBatch := []
  wf := dot_S16384x128_S128x2048_S16384x2048_1_0_0_1_n_n_wf

class Facts : Prop extends Facts₀ where

variable [Facts]
-- ==== Proof.GatedRow.lean ====
/-
  The function both programs compute, one output row at a time.

  A row `r` of the input (2048 entries) is projected on the 128 columns of `U`; the projections, weighted by the
  column `w1`, sum to one number, and that number times the eight entries of the row `w2` gives eight logits.  The
  logits go through a softmax (shifted by their maximum, taken from minus infinity), and the eight weights mix the eight
  rows of `lam` into one row of 128 factors.  The row's projections on the columns of `V`, multiplied entry by entry by
  those factors, are sent back through `U` (transposed) and added to the row's image under `W` (transposed); the sum is
  scaled, column by column, by one plus `v`.

  Everything is stated on the extended reals, over index types with literal extents, so that it can be compared with
  either program index by index.
-/
import Idealize.ShloMosaic.PureOps.Ideal
import Idealize.ShloMosaic.PureOps.Ideal.Laws
import Idealize.ShloMosaic.Lib.ValueIdx

noncomputable section

open scoped BigOperators

namespace Cert.GatedRow

open Idealize.ShloMosaic Idealize.ShloMosaic.ValueIdx

/-- A matrix of extended reals with literal extents. -/
abbrev Mat (a b : ℕ) := (⟨2, ![a, b]⟩ : Shape).Idx → EReal
/-- A vector of extended reals with a literal extent. -/
abbrev Vc (a : ℕ) := (⟨1, ![a]⟩ : Shape).Idx → EReal

/-- Minus infinity, as the f32 word both programs start their maximum from. -/
def negInf : EReal := Ideal.ofBits .f32 0xFF800000#32
/-- One, as the f32 word both programs add to `v`. -/
def one : EReal := Ideal.ofBits .f32 0x3F800000#32

/-- A row times column `k` of a matrix. -/
def proj {n m : ℕ} (r : Fin n → EReal) (M : Mat n m) (k : Fin m) : EReal := ∑ j : Fin n, r j * M (ix2 j k)

/-- The eight gating logits of a row. -/
def logit (r : Fin 2048 → EReal) (U : Mat 2048 128) (w1 : Mat 128 1) (w2 : Mat 1 8) (e : Fin 8) : EReal :=
  (∑ k : Fin 128, proj r U k * w1 (ix2 k (0 : Fin 1))) * w2 (ix2 (0 : Fin 1) e)

/-- The maximum of eight numbers, started from minus infinity (and once more compared with it). -/
def rowMax (z : Fin 8 → EReal) : EReal := max negInf ((Finset.univ : Finset (Fin 8)).fold max negInf z)

/-- The softmax weights of eight logits. -/
def gate (z : Fin 8 → EReal) (e : Fin 8) : EReal :=
  Ideal.div (Ideal.exp (z e - rowMax z)) (∑ e' : Fin 8, Ideal.exp (z e' - rowMax z))

/-- Eight weights mixing the eight rows of `lam`, read at column `k`. -/
def mix (g : Fin 8 → EReal) (lam : Mat 8 128) (k : Fin 128) : EReal := ∑ e : Fin 8, g e * lam (ix2 e k)

/-- The output row of an input row, read at column `d`. -/
def outRow (r : Fin 2048 → EReal) (W : Mat 2048 2048) (U V : Mat 2048 128) (lam : Mat 8 128) (v : Vc 2048)
    (w1 : Mat 128 1) (w2 : Mat 1 8) (d : Fin 2048) : EReal :=
  ((∑ j : Fin 2048, r j * W (ix2 d j))
      + ∑ k : Fin 128, (proj r V k * mix (gate (logit r U w1 w2)) lam k) * U (ix2 d k))
    * (one + v (ix1 d))

/-- The whole result: row `n` of the output is the output row of row `n` of `x`. -/
def result (x : Mat 16384 2048) (W : Mat 2048 2048) (U V : Mat 2048 128) (lam : Mat 8 128) (v : Vc 2048)
    (w1 : Mat 128 1) (w2 : Mat 1 8) : Mat 16384 2048 :=
  fun i => outRow (fun j => x (ix2 (i 0) j)) W U V lam v w1 w2 (i 1)

theorem result_apply (x : Mat 16384 2048) (W : Mat 2048 2048) (U V : Mat 2048 128) (lam : Mat 8 128) (v : Vc 2048)
    (w1 : Mat 128 1) (w2 : Mat 1 8) (n : Fin 16384) (d : Fin 2048) :
    result x W U V lam v w1 w2 (ix2 n d) = outRow (fun j => x (ix2 n j)) W U V lam v w1 w2 d := rfl

end Cert.GatedRow

end
-- ==== Proof.LibPlainMatmul.lean ====
/-
  A plain matrix product read at a row and a column.

  For a product of an `[M, K]` matrix by a `[K, N]` matrix that contracts the first operand's second axis with the second
  operand's first axis and has no batch axis, accumulated into the zero matrix, the entry at `(i, o)` is, on the extended
  reals, the sum over `k` of the first operand at `(i, k)` times the second at `(k, o)`.  The lemma takes the four
  coordinate facts of the dimension record (which operand coordinate reads the result index, which the contraction index) as
  hypotheses, so that it serves any record with this layout, whatever its extents.
-/
import Idealize.ShloMosaic.PureOps.Ideal.Laws
import Idealize.ShloMosaic.Lib.ValueIdx

noncomputable section

open scoped BigOperators

namespace Cert.Lib.PlainMatmul

open Idealize.ShloMosaic Idealize.ShloMosaic.ValueIdx

/-- The entry `(i, o)` of `lhs · rhs` accumulated into zero is `∑ k, lhs (i, k) * rhs (k, o)`. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (lhs : FVec Ideal ⟨2, ![M, K]⟩ φ₁) (rhs : FVec Ideal ⟨2, ![K, N]⟩ φ₂)
    (i : Fin M) (o : Fin N) :
    matmul d prec lhs rhs (constant ⟨2, ![M, N]⟩ .f32 0x00000000#32) (ix2 i o)
      = ∑ k : Fin K, lhs (ix2 i k) * rhs (ix2 k o) := by
  refine (Ideal.matmul_constant_zero_apply d prec lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

end Cert.Lib.PlainMatmul

end
-- ==== Proof.LibKeepdims.lean ====
/-
  A row reduction kept as a column, read at an index by coordinates.

  `jnp.sum(x, axis=1, keepdims=True)` of an `[a, b]` array is three steps on the vector unit: a lane sum into `[a]`, a
  reshape of that vector to the column `[a, 1]`, and (where the column meets an `[a, b]` operand) its broadcast along
  the second axis. Read at `(p, c)` the three steps together are `∑ k, x (p, k)`, whatever `c`:
  `shapeCast_a_a1_apply` (the column at `(i, u)` is the vector at `i`), `broadcastTo_a1_ab_apply` (the broadcast at
  `(p, c)` is the column at `(p, 0)`) and `rowSum_f32` (an f32 lane sum over the second axis of a matrix, from the zero
  word, is the sum over `k` of the row's entries on the extended reals).
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- An `[a]` vector reshaped to the column `[a, 1]` reads, at `(i, u)`, the vector at `i`: both sit at row-major
    position `i`, the unit coordinate contributing nothing. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the second axis of an `[a, b]` matrix, started from the zero word (the sum's neutral element),
    is at row `r` the sum of that row's entries on the extended reals: the reduced index with the coordinate `k` put back
    on axis 1 is `(r, k)`. -/
theorem rowSum_f32 {a b : ℕ} (v : FVec Ideal ⟨2, ![a, b]⟩ .f32) (h : (⟨2, ![a, b]⟩ : Shape).Reduces [1] ⟨1, ![a]⟩) (r : Fin a) :
    multiReduction .add [1] ⟨1, ![a]⟩ v 0x00000000#32 h (.inl rfl) rfl (ix1 r) = ∑ k : Fin b, v (ix2 r k) := by
  refine (Ideal.multiReduction_add_single v 0x00000000#32 h (.inl rfl) rfl (ix1 r)).trans ?_
  refine Finset.sum_congr rfl fun k _ => congrArg v (funext fun c => Fin.ext ?_)
  match c with
  | ⟨0, _⟩ => rfl
  | ⟨1, _⟩ => rfl

end Cert.Lib.Keepdims

end
-- ==== Proof.BlockRows.lean ====
/-
  One block of the kernel computes the row function on each of its 256 rows.

  At a grid point the kernel body holds a block of 256 rows of `x` and the whole of the prepared operands: `W` transposed,
  `U` and `V` side by side in one `[2048, 256]` matrix, `U` transposed, `lam`, `v` as a row, `w1` as a row, and `w2`.  Read at
  a row and a column, each of the body's four matrix products is a sum over the contracted coordinate; the left half of the
  wide product holds the projections on `U` and the right half those on `V`; the lane sums, the lane maximum and the
  broadcasts of their results along the row act on one row at a time.  So row `r` of what the body stores is the row function
  of row `r` of the block, once the prepared operands are read back as the arguments they were made from.
-/
import proofs.«116866_j39058432590135_2_alg».proof.Proof.Gen.KernelIdeal.Skeleton
import proofs.«116866_j39058432590135_2_alg».proof.Proof.GatedRow
import proofs.«116866_j39058432590135_2_alg».proof.Proof.LibPlainMatmul
import proofs.«116866_j39058432590135_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.BlockRows

open Cert.KernelIdeal Cert.KernelIdeal.Gen Cert.GatedRow Idealize.ShloMosaic Idealize.ShloMosaic.ValueIdx

/-! ## The four matrix products, read at a row and a column -/

/-- The block times the wide matrix holding `U` and `V` side by side. -/
theorem mulUV (lhs : FVec Ideal S256x2048 .bf16) (rhs : FVec Ideal S2048x256 .bf16) (i : Fin 256) (o : Fin 256) :
    matmul dot_S256x2048_S2048x256_S256x256_1_0_0_1_n_n none lhs rhs (constant S256x256 .f32 0x00000000#32) (ix2 i o)
      = ∑ k : Fin 2048, lhs (ix2 i k) * rhs (ix2 k o) :=
  Cert.Lib.PlainMatmul.matmul_zero_apply dot_S256x2048_S2048x256_S256x256_1_0_0_1_n_n rfl rfl
    (fun j q => by
      unfold DotDims.lhsIdx
      rw [dif_neg (show ¬(⟨0, Nat.zero_lt_two⟩ : Fin S256x2048.rank) ∈ dot_S256x2048_S2048x256_S256x256_1_0_0_1_n_n.lhsBatch by decide),
        dif_pos (show (⟨0, Nat.zero_lt_two⟩ : Fin S256x2048.rank) ∈ dot_S256x2048_S2048x256_S256x256_1_0_0_1_n_n.lhsNonContracting by decide)]
      rfl)
    (fun j q => dot_S256x2048_S2048x256_S256x256_1_0_0_1_n_n.lhsIdx_val_of_single rfl j q)
    (fun j q => dot_S256x2048_S2048x256_S256x256_1_0_0_1_n_n.rhsIdx_val_of_single rfl j q)
    (fun j q => by
      unfold DotDims.rhsIdx
      rw [dif_neg (show ¬(⟨1, Nat.one_lt_two⟩ : Fin S2048x256.rank) ∈ dot_S256x2048_S2048x256_S256x256_1_0_0_1_n_n.rhsBatch by decide),
        dif_pos (show (⟨1, Nat.one_lt_two⟩ : Fin S2048x256.rank) ∈ dot_S256x2048_S2048x256_S256x256_1_0_0_1_n_n.rhsNonContracting by decide)]
      rfl)
    none lhs rhs i o

/-- The softmax weights times `lam`. -/
theorem mulLam (lhs : FVec Ideal S256x8 .bf16) (rhs : FVec Ideal S8x128 .bf16) (i : Fin 256) (o : Fin 128) :
    matmul dot_S256x8_S8x128_S256x128_1_0_0_1_n_n none lhs rhs (constant S256x128 .f32 0x00000000#32) (ix2 i o)
      = ∑ k : Fin 8, lhs (ix2 i k) * rhs (ix2 k o) :=
  Cert.Lib.PlainMatmul.matmul_zero_apply dot_S256x8_S8x128_S256x128_1_0_0_1_n_n rfl rfl
    (fun j q => by
      unfold DotDims.lhsIdx
      rw [dif_neg (show ¬(⟨0, Nat.zero_lt_two⟩ : Fin S256x8.rank) ∈ dot_S256x8_S8x128_S256x128_1_0_0_1_n_n.lhsBatch by decide),
        dif_pos (show (⟨0, Nat.zero_lt_two⟩ : Fin S256x8.rank) ∈ dot_S256x8_S8x128_S256x128_1_0_0_1_n_n.lhsNonContracting by decide)]
      rfl)
    (fun j q => dot_S256x8_S8x128_S256x128_1_0_0_1_n_n.lhsIdx_val_of_single rfl j q)
    (fun j q => dot_S256x8_S8x128_S256x128_1_0_0_1_n_n.rhsIdx_val_of_single rfl j q)
    (fun j q => by
      unfold DotDims.rhsIdx
      rw [dif_neg (show ¬(⟨1, Nat.one_lt_two⟩ : Fin S8x128.rank) ∈ dot_S256x8_S8x128_S256x128_1_0_0_1_n_n.rhsBatch by decide),
        dif_pos (show (⟨1, Nat.one_lt_two⟩ : Fin S8x128.rank) ∈ dot_S256x8_S8x128_S256x128_1_0_0_1_n_n.rhsNonContracting by decide)]
      rfl)
    none lhs rhs i o

/-- The weighted projections times `U` transposed. -/
theorem mulBack (lhs : FVec Ideal S256x128 .bf16) (rhs : FVec Ideal S128x2048 .bf16) (i : Fin 256) (o : Fin 2048) :
    matmul dot_S256x128_S128x2048_S256x2048_1_0_0_1_n_n none lhs rhs (constant S256x2048 .f32 0x00000000#32) (ix2 i o)
      = ∑ k : Fin 128, lhs (ix2 i k) * rhs (ix2 k o) :=
  Cert.Lib.PlainMatmul.matmul_zero_apply dot_S256x128_S128x2048_S256x2048_1_0_0_1_n_n rfl rfl
    (fun j q => by
      unfold DotDims.lhsIdx
      rw [dif_neg (show ¬(⟨0, Nat.zero_lt_two⟩ : Fin S256x128.rank) ∈ dot_S256x128_S128x2048_S256x2048_1_0_0_1_n_n.lhsBatch by decide),
        dif_pos (show (⟨0, Nat.zero_lt_two⟩ : Fin S256x128.rank) ∈ dot_S256x128_S128x2048_S256x2048_1_0_0_1_n_n.lhsNonContracting by decide)]
      rfl)
    (fun j q => dot_S256x128_S128x2048_S256x2048_1_0_0_1_n_n.lhsIdx_val_of_single rfl j q)
    (fun j q => dot_S256x128_S128x2048_S256x2048_1_0_0_1_n_n.rhsIdx_val_of_single rfl j q)
    (fun j q => by
      unfold DotDims.rhsIdx
      rw [dif_neg (show ¬(⟨1, Nat.one_lt_two⟩ : Fin S128x2048.rank) ∈ dot_S256x128_S128x2048_S256x2048_1_0_0_1_n_n.rhsBatch by decide),
        dif_pos (show (⟨1, Nat.one_lt_two⟩ : Fin S128x2048.rank) ∈ dot_S256x128_S128x2048_S256x2048_1_0_0_1_n_n.rhsNonContracting by decide)]
      rfl)
    none lhs rhs i o

/-- The block times `W` transposed. -/
theorem mulW (lhs : FVec Ideal S256x2048 .bf16) (rhs : FVec Ideal S2048x2048 .bf16) (i : Fin 256) (o : Fin 2048) :
    matmul dot_S256x2048_S2048x2048_S256x2048_1_0_0_1_n_n none lhs rhs (constant S256x2048 .f32 0x00000000#32) (ix2 i o)
      = ∑ k : Fin 2048, lhs (ix2 i k) * rhs (ix2 k o) :=
  Cert.Lib.PlainMatmul.matmul_zero_apply dot_S256x2048_S2048x2048_S256x2048_1_0_0_1_n_n rfl rfl
    (fun j q => by
      unfold DotDims.lhsIdx
      rw [dif_neg (show ¬(⟨0, Nat.zero_lt_two⟩ : Fin S256x2048.rank) ∈ dot_S256x2048_S2048x2048_S256x2048_1_0_0_1_n_n.lhsBatch by decide),
        dif_pos (show (⟨0, Nat.zero_lt_two⟩ : Fin S256x2048.rank) ∈ dot_S256x2048_S2048x2048_S256x2048_1_0_0_1_n_n.lhsNonContracting by decide)]
      rfl)
    (fun j q => dot_S256x2048_S2048x2048_S256x2048_1_0_0_1_n_n.lhsIdx_val_of_single rfl j q)
    (fun j q => dot_S256x2048_S2048x2048_S256x2048_1_0_0_1_n_n.rhsIdx_val_of_single rfl j q)
    (fun j q => by
      unfold DotDims.rhsIdx
      rw [dif_neg (show ¬(⟨1, Nat.one_lt_two⟩ : Fin S2048x2048.rank) ∈ dot_S256x2048_S2048x2048_S256x2048_1_0_0_1_n_n.rhsBatch by decide),
        dif_pos (show (⟨1, Nat.one_lt_two⟩ : Fin S2048x2048.rank) ∈ dot_S256x2048_S2048x2048_S256x2048_1_0_0_1_n_n.rhsNonContracting by decide)]
      rfl)
    none lhs rhs i o

/-! ## The wide product and its two halves -/

variable (x0 : FVec Ideal S256x2048 .f32) (x1 : FVec Ideal S2048x2048 .bf16) (x2 : FVec Ideal S2048x256 .bf16)
  (x3 : FVec Ideal S128x2048 .bf16) (x4 : FVec Ideal S8x128 .bf16) (x5 : FVec Ideal S1x2048 .f32)
  (x6 : FVec Ideal S1x128 .f32) (x7 : FVec Ideal S1x8 .f32)

/-- The wide product at `(r, c)`: row `r` of the block times column `c` of the wide matrix (the change of format of the block and
    the reshape of the wide matrix to its own shape change nothing). -/
theorem wide_at (r : Fin 256) (c : Fin 256) :
    k0_pay7 (F := Ideal) x0 x2 (ix2 r c) = ∑ j : Fin 2048, x0 (ix2 r j) * x2 (ix2 j c) := by
  have e : k0_pay7 (F := Ideal) x0 x2
      = matmul dot_S256x2048_S2048x256_S256x256_1_0_0_1_n_n none (truncf .bf16 x0 bitsLt_bf16_f32) x2 (constant S256x256 .f32 0x00000000#32) := by
    unfold k0_pay7 k0_pay2
    dsimp only
    rw [shapeCast_self]
  rw [e]
  exact mulUV _ _ r c

/-- The right half of the wide product: the projections on the second of the two matrices side by side. -/
theorem right_at (r : Fin 256) (k : Fin 128) :
    k0_pay8 (F := Ideal) x0 x2 (ix2 r k) = ∑ j : Fin 2048, x0 (ix2 r j) * x2 (ix2 j (⟨128 + k.val, by omega⟩ : Fin 256)) := by
  show extractStridedSlice S256x128 ![0, 128] (k0_pay7 (F := Ideal) x0 x2) slices_S256x256_o0_128_S256x128 (ix2 r k) = _
  refine (slice2_axis1_apply 128 (k0_pay7 (F := Ideal) x0 x2) slices_S256x256_o0_128_S256x128 r k (⟨128 + k.val, by omega⟩ : Fin 256) rfl).trans ?_
  exact wide_at x0 x2 r _

/-- The left half of the wide product: the projections on the first of the two matrices side by side. -/
theorem left_at (r : Fin 256) (k : Fin 128) :
    extractStridedSlice S256x128 ![0, 0] (k0_pay7 (F := Ideal) x0 x2) slices_S256x256_o0_0_S256x128 (ix2 r k)
      = ∑ j : Fin 2048, x0 (ix2 r j) * x2 (ix2 j (⟨k.val, by omega⟩ : Fin 256)) := by
  refine (slice2_axis1_apply 0 (k0_pay7 (F := Ideal) x0 x2) slices_S256x256_o0_0_S256x128 r k (⟨k.val, by omega⟩ : Fin 256) (Nat.zero_add _).symm).trans ?_
  exact wide_at x0 x2 r _

/-! ## A value per row, spread along the row -/

/-- A vector of 256 numbers, one per row, as a `[256, 8]` array constant along each row. -/
def spread8 (u : FVec Ideal S256 .f32) : FVec Ideal S256x8 .f32 :=
  broadcastTo S256x8 (shapeCast S256x1 u shapeCasts_S256_S256x1) broadcasts_S256x1_S256x8

theorem spread8_apply (u : FVec Ideal S256 .f32) (r : Fin 256) (e : Fin 8) : spread8 u (ix2 r e) = u (ix1 r) := by
  unfold spread8
  refine (Cert.Lib.Keepdims.broadcastTo_a1_ab_apply _ broadcasts_S256x1_S256x8 r e).trans ?_
  exact Cert.Lib.Keepdims.shapeCast_a_a1_apply u shapeCasts_S256_S256x1 r (0 : Fin 1)

/-! ## The softmax of each row -/

/-- Each row's maximum, from minus infinity and compared with it once more. -/
def maxRows (z : FVec Ideal S256x8 .f32) : FVec Ideal S256 .f32 :=
  maximumf (broadcast S256 (Scalar.ofBits (F := Ideal) .f32 0xFF800000#32))
    (multiReduction .maximumf [1] S256 z 0xFF800000#32 reduces_S256x8_S256 (.inl rfl) rfl)

theorem maxRows_apply (z : FVec Ideal S256x8 .f32) (r : Fin 256) :
    maxRows z (ix1 r) = rowMax (fun e => z (ix2 r e)) := by
  show max (Ideal.ofBits .f32 0xFF800000#32)
      (multiReduction .maximumf [1] S256 z 0xFF800000#32 reduces_S256x8_S256 (.inl rfl) rfl (ix1 r)) = _
  unfold rowMax negInf
  refine congrArg (max _) ?_
  refine (Ideal.multiReduction_maximumf_single z 0xFF800000#32 reduces_S256x8_S256 (.inl rfl) rfl (ix1 r)).trans ?_
  have hf : (fun e => z (reduces_S256x8_S256.lift (ix1 r) e)) = fun e : Fin 8 => z (ix2 r e) :=
    funext fun e => congrArg z (funext fun c => Fin.ext (by
      match c with
      | ⟨0, _⟩ => rfl
      | ⟨1, _⟩ => rfl))
  show Finset.fold max (Ideal.ofBits .f32 0xFF800000#32) (fun e => z (reduces_S256x8_S256.lift (ix1 r) e)) Finset.univ = _
  rw [hf]
  rfl

/-- The exponentials of each row's entries shifted by the row's maximum. -/
def expRows (z : FVec Ideal S256x8 .f32) : FVec Ideal S256x8 .f32 := exp (subf z (spread8 (maxRows z)))

theorem expRows_apply (z : FVec Ideal S256x8 .f32) (r : Fin 256) (e : Fin 8) :
    expRows z (ix2 r e) = Ideal.exp (z (ix2 r e) - rowMax (fun e' => z (ix2 r e'))) := by
  show Ideal.exp (z (ix2 r e) - spread8 (maxRows z) (ix2 r e)) = _
  rw [spread8_apply, maxRows_apply]

/-- Each row's softmax weights. -/
def softmaxRows (z : FVec Ideal S256x8 .f32) : FVec Ideal S256x8 .f32 :=
  divf (expRows z)
    (spread8 (multiReduction .add [1] S256 (expRows z) 0x00000000#32 reduces_S256x8_S256 (.inl rfl) rfl))

theorem softmaxRows_apply (z : FVec Ideal S256x8 .f32) (r : Fin 256) (e : Fin 8) :
    softmaxRows z (ix2 r e) = gate (fun e' => z (ix2 r e')) e := by
  show Ideal.div (expRows z (ix2 r e))
      (spread8 (multiReduction .add [1] S256 (expRows z) 0x00000000#32 reduces_S256x8_S256 (.inl rfl) rfl) (ix2 r e)) = _
  rw [spread8_apply, Cert.Lib.Keepdims.rowSum_f32 (expRows z) reduces_S256x8_S256 r, expRows_apply]
  unfold gate
  refine congrArg (Ideal.div _) (Finset.sum_congr rfl fun e' _ => ?_)
  exact expRows_apply z r e'

/-! ## The logits of each row -/

/-- The logits of every row of the block, from the wide product, the row `w1` and the row `w2`. -/
def logitRows (uv : FVec Ideal S256x256 .f32) (x6 : FVec Ideal S1x128 .f32) (x7 : FVec Ideal S1x8 .f32) : FVec Ideal S256x8 .f32 :=
  mulf (spread8 (multiReduction .add [1] S256
      (mulf (extractStridedSlice S256x128 ![0, 0] uv slices_S256x256_o0_0_S256x128)
        (broadcastTo S256x128 (shapeCast S1x128 x6 shapeCasts_S1x128_S1x128) broadcasts_S1x128_S256x128))
      0x00000000#32 reduces_S256x128_S256 (.inl rfl) rfl))
    (broadcastTo S256x8 x7 broadcasts_S1x8_S256x8)

theorem logitRows_apply (r : Fin 256) (e : Fin 8) :
    logitRows (k0_pay7 (F := Ideal) x0 x2) x6 x7 (ix2 r e)
      = (∑ k : Fin 128, (∑ j : Fin 2048, x0 (ix2 r j) * x2 (ix2 j (⟨k.val, by omega⟩ : Fin 256))) * x6 (ix2 (0 : Fin 1) k))
          * x7 (ix2 (0 : Fin 1) e) := by
  show spread8 (multiReduction .add [1] S256
      (mulf (extractStridedSlice S256x128 ![0, 0] (k0_pay7 (F := Ideal) x0 x2) slices_S256x256_o0_0_S256x128)
        (broadcastTo S256x128 (shapeCast S1x128 x6 shapeCasts_S1x128_S1x128) broadcasts_S1x128_S256x128))
      0x00000000#32 reduces_S256x128_S256 (.inl rfl) rfl) (ix2 r e)
      * broadcastTo S256x8 x7 broadcasts_S1x8_S256x8 (ix2 r e) = _
  rw [spread8_apply, Cert.Lib.Keepdims.rowSum_f32 _ reduces_S256x128_S256 r, broadcastTo_1b_ab_apply x7 broadcasts_S1x8_S256x8 r e]
  refine congrArg (· * x7 (ix2 (0 : Fin 1) e)) (Finset.sum_congr rfl fun k _ => ?_)
  show extractStridedSlice S256x128 ![0, 0] (k0_pay7 (F := Ideal) x0 x2) slices_S256x256_o0_0_S256x128 (ix2 r k)
      * broadcastTo S256x128 (shapeCast S1x128 x6 shapeCasts_S1x128_S1x128) broadcasts_S1x128_S256x128 (ix2 r k) = _
  rw [left_at, broadcastTo_1b_ab_apply _ broadcasts_S1x128_S256x128 r k, shapeCast_self]

/-- The body's softmax weights are the softmax of the body's logits (the change of format at the end changes nothing). -/
theorem weights_eq :
    k0_pay9 (F := Ideal) x0 x2 x6 x7 = truncf .bf16 (softmaxRows (logitRows (k0_pay7 (F := Ideal) x0 x2) x6 x7)) bitsLt_bf16_f32 := rfl

theorem weights_at (r : Fin 256) (e : Fin 8) :
    k0_pay9 (F := Ideal) x0 x2 x6 x7 (ix2 r e) = gate (fun e' => logitRows (k0_pay7 (F := Ideal) x0 x2) x6 x7 (ix2 r e')) e := by
  rw [weights_eq]
  exact softmaxRows_apply _ r e

/-! ## What the body stores -/

/-- What the body stores, at `(r, d)`, from the values it computed before: the two products added and scaled. -/
theorem stored_at (v1 : FVec Ideal S256x2048 .bf16) (v3 : FVec Ideal S2048x2048 .bf16) (v7 : FVec Ideal S128x2048 .bf16)
    (v9 : FVec Ideal S8x128 .bf16) (v11 : FVec Ideal S1x2048 .f32) (v17 : FVec Ideal S256x128 .f32)
    (v36 : FVec Ideal S256x8 .bf16) (r : Fin 256) (d : Fin 2048) :
    k0_pay1 (F := Ideal) v1 v3 v7 v9 v11 v17 v36 (constant S256x128 .f32 0x00000000#32) (ix2 r d)
      = ((∑ j : Fin 2048, v1 (ix2 r j) * v3 (ix2 j d))
          + ∑ k : Fin 128, (v17 (ix2 r k) * ∑ e : Fin 8, v36 (ix2 r e) * v9 (ix2 e k)) * v7 (ix2 k d))
        * (one + v11 (ix2 (0 : Fin 1) d)) := by
  show (matmul dot_S256x2048_S2048x2048_S256x2048_1_0_0_1_n_n none v1 v3 (constant S256x2048 .f32 0x00000000#32) (ix2 r d)
        + matmul dot_S256x128_S128x2048_S256x2048_1_0_0_1_n_n none
            (truncf .bf16 (mulf v17 (matmul dot_S256x8_S8x128_S256x128_1_0_0_1_n_n none v36 v9 (constant S256x128 .f32 0x00000000#32))) bitsLt_bf16_f32)
            v7 (constant S256x2048 .f32 0x00000000#32) (ix2 r d))
      * broadcastTo S256x2048 (addf (broadcast S1x2048 (Scalar.ofBits (F := Ideal) .f32 0x3F800000#32)) v11)
          broadcasts_S1x2048_S256x2048 (ix2 r d) = _
  rw [mulW, mulBack, broadcastTo_1b_ab_apply _ broadcasts_S1x2048_S256x2048 r d]
  refine congrArg₂ (· * ·) (congrArg (_ + ·) (Finset.sum_congr rfl fun k _ => ?_)) rfl
  refine congrArg (· * v7 (ix2 k d)) ?_
  show v17 (ix2 r k) * matmul dot_S256x8_S8x128_S256x128_1_0_0_1_n_n none v36 v9 (constant S256x128 .f32 0x00000000#32) (ix2 r k) = _
  rw [mulLam]

/-! ## Row `r` of the stored block is the row function of row `r` of the block -/

/-- With the prepared operands read back as the arguments they were made from, the body's stored value at `(r, d)` is the row
    function of row `r` of the block, at column `d`. -/
theorem block_row (W : Mat 2048 2048) (U V : Mat 2048 128) (lam : Mat 8 128) (v : Vc 2048) (w1 : Mat 128 1) (w2 : Mat 1 8)
    (h1 : ∀ (j d : Fin 2048), x1 (ix2 j d) = W (ix2 d j))
    (h2U : ∀ (j : Fin 2048) (k : Fin 128), x2 (ix2 j (⟨k.val, by omega⟩ : Fin 256)) = U (ix2 j k))
    (h2V : ∀ (j : Fin 2048) (k : Fin 128), x2 (ix2 j (⟨128 + k.val, by omega⟩ : Fin 256)) = V (ix2 j k))
    (h3 : ∀ (k : Fin 128) (d : Fin 2048), x3 (ix2 k d) = U (ix2 d k))
    (h4 : ∀ (e : Fin 8) (k : Fin 128), x4 (ix2 e k) = lam (ix2 e k))
    (h5 : ∀ d : Fin 2048, x5 (ix2 (0 : Fin 1) d) = v (ix1 d))
    (h6 : ∀ k : Fin 128, x6 (ix2 (0 : Fin 1) k) = w1 (ix2 k (0 : Fin 1)))
    (h7 : ∀ e : Fin 8, x7 (ix2 (0 : Fin 1) e) = w2 (ix2 (0 : Fin 1) e))
    (r : Fin 256) (d : Fin 2048) :
    k0_pay1 (F := Ideal) (k0_pay2 (F := Ideal) x0) (k0_pay3 (F := Ideal) x1) (k0_pay4 (F := Ideal) x3) (k0_pay5 (F := Ideal) x4) (k0_pay6 (F := Ideal) x5) (k0_pay8 (F := Ideal) x0 x2) (k0_pay9 (F := Ideal) x0 x2 x6 x7)
        (constant S256x128 .f32 0x00000000#32) (ix2 r d)
      = outRow (fun j => x0 (ix2 r j)) W U V lam v w1 w2 d := by
  have e3 : k0_pay3 (F := Ideal) x1 = x1 := shapeCast_self x1 _
  have e4 : k0_pay4 (F := Ideal) x3 = x3 := shapeCast_self x3 _
  have e5 : k0_pay5 (F := Ideal) x4 = x4 := shapeCast_self x4 _
  have e6 : k0_pay6 (F := Ideal) x5 = x5 := shapeCast_self x5 _
  rw [stored_at, e3, e4, e5, e6]
  have hlog : (fun e' => logitRows (k0_pay7 (F := Ideal) x0 x2) x6 x7 (ix2 r e')) = logit (fun j => x0 (ix2 r j)) U w1 w2 :=
    funext fun e' => by
      rw [logitRows_apply, h7]
      unfold logit proj
      refine congrArg (· * w2 (ix2 (0 : Fin 1) e')) (Finset.sum_congr rfl fun k _ => ?_)
      rw [h6]
      refine congrArg (· * w1 (ix2 k (0 : Fin 1))) (Finset.sum_congr rfl fun j _ => ?_)
      rw [h2U]
  unfold outRow
  refine congrArg₂ (· * ·) (congrArg₂ (· + ·) ?_ ?_) ?_
  · refine Finset.sum_congr rfl fun j _ => ?_
    rw [h1]
    rfl
  · refine Finset.sum_congr rfl fun k _ => ?_
    rw [h3, right_at]
    refine congrArg (· * U (ix2 d k)) (congrArg₂ (· * ·) ?_ ?_)
    · unfold proj
      refine Finset.sum_congr rfl fun j _ => ?_
      rw [h2V]
    · unfold mix
      refine Finset.sum_congr rfl fun e _ => ?_
      rw [weights_at, hlog, h4]
  · rw [h5]

end Cert.BlockRows

end
-- ==== Proof.LibConcat2.lean ====
/-
  Reading what a buffer holds after a line of host operations.

  A line of host operations is a fold: each operation overwrites its result buffer with its function of its operand
  buffers.  What a buffer holds afterwards is therefore a nest of those functions over the contents the line started
  from, and one rewriting pass computes it: at an operation's own result buffer the fold gives the function's value, at
  any other buffer what was there before.

  One operation stops such a pass: a concatenation takes its operands as a LIST of (shape, array) pairs, and a rewriting
  pass does not enter that list.  For two operands we give the concatenation a form with the operands as plain
  arguments; the pass folds a concatenation into this form as soon as it meets one and then continues inside the two
  operands.
-/
import Idealize.ShloMosaic.Lib.StableHlo.Run

namespace Cert.HostLine

open Idealize.ShloMosaic Idealize.ShloMosaic.StableHlo

/-- The concatenation of two arrays along an axis, the two arrays as plain arguments. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A concatenation of two operands is `concat2` of them. -/
theorem concat2_fold {α : Type} (t : Shape) (a : Fin t.rank) (s1 s2 : Shape) (h : Shape.Concatenates [s1, s2] t a)
    (x : s1.Idx → α) (y : s2.Idx → α) :
    concatenate t a [⟨s1, x⟩, ⟨s2, y⟩] h = concat2 t a s1 s2 h x y := rfl

/-- Computes `after ops V b` for a literal line `ops`, as the operations' functions nested over `V` at the buffers the
    line reads but does not write; two-operand concatenations come out as `concat2`. -/
macro "host_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fold]))

end Cert.HostLine
-- ==== Proof.LibSplitConcat.lean ====
/-
  Two facts used to read a dense layer that is fed a concatenation of feature rows.

  A sum over an index range that is laid out as two or three consecutive blocks is the sum of the
  blocks' sums.  An array obtained by joining two or three arrays along their second axis, read at a
  row and a column, is the piece whose block of columns holds the column, read at the same row and at
  the column counted from the start of that block.
-/
import Idealize.ShloMosaic.Lib.Pipeline.Value
import Idealize.ShloMosaic.Lib.ValueIdx

open scoped BigOperators

namespace Cert.ReferenceIdeal.Stages

open Idealize.ShloMosaic Idealize.ShloMosaic.ValueIdx

/-! ## A sum over consecutive blocks -/

/-- A sum over `A + B` consecutive positions is the sum over the first `A` plus the sum over the last `B`. -/
theorem sum_split2 {M : Type} [AddCommMonoid M] {A B N : Nat} (h : A + B = N) (f : Fin N → M) :
    ∑ k : Fin N, f k
      = (∑ k : Fin A, f ⟨k.val, by omega⟩) + ∑ k : Fin B, f ⟨A + k.val, by omega⟩ := by
  subst h
  rw [Fin.sum_univ_add]
  rfl

/-- A sum over `A + B + C` consecutive positions is the sum of the three blocks' sums. -/
theorem sum_split3 {M : Type} [AddCommMonoid M] {A B C N : Nat} (h : A + B + C = N) (f : Fin N → M) :
    ∑ k : Fin N, f k
      = (∑ k : Fin A, f ⟨k.val, by omega⟩) + (∑ k : Fin B, f ⟨A + k.val, by omega⟩)
          + ∑ k : Fin C, f ⟨A + B + k.val, by omega⟩ := by
  subst h
  rw [Fin.sum_univ_add, Fin.sum_univ_add]
  rfl

/-! ## Arrays joined along the second axis, read at a row and a column -/

section Cat
variable {α : Type}

/-- Two arrays joined along the second axis: a column in the first block reads the first array. -/
theorem cat2_left {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin A) (hk : k.val < N) :
    concatenate ⟨2, ![E, N]⟩ 1 [⟨⟨2, ![E, A]⟩, x₁⟩, ⟨⟨2, ![E, B]⟩, x₂⟩] h (ix2 e ⟨k.val, hk⟩) = x₁ (ix2 e k) :=
  concatenate_pair_apply_left 1 x₁ x₂ h _ rfl _ (fun b => by
    match b with
    | ⟨0, _⟩ => rfl
    | ⟨1, _⟩ => rfl)

/-- Two arrays joined along the second axis: a column in the second block reads the second array. -/
theorem cat2_right {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin B) (hk : A + k.val < N) :
    concatenate ⟨2, ![E, N]⟩ 1 [⟨⟨2, ![E, A]⟩, x₁⟩, ⟨⟨2, ![E, B]⟩, x₂⟩] h (ix2 e ⟨A + k.val, hk⟩) = x₂ (ix2 e k) :=
  concatenate_pair_apply_right 1 x₁ x₂ h _ rfl rfl _
    (fun b hb => by
      match b with
      | ⟨0, _⟩ => rfl
      | ⟨1, _⟩ => exact absurd rfl hb)
    (Nat.add_comm _ _)

/-- Three arrays joined along the second axis: a column in the first block reads the first array. -/
theorem cat3_first {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin A)
    (hk : k.val < N) :
    concatenate ⟨2, ![E, N]⟩ 1 [⟨⟨2, ![E, A]⟩, x₁⟩, ⟨⟨2, ![E, B]⟩, x₂⟩, ⟨⟨2, ![E, C]⟩, x₃⟩] h (ix2 e ⟨k.val, hk⟩)
      = x₁ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 0 (show (0 : Nat) < 3 by omega) ⟨2, ![E, A]⟩ x₁ rfl rfl 0 rfl (ix2 e k)
    (fun b hb => by
      match b with
      | ⟨0, _⟩ => rfl
      | ⟨1, _⟩ => exact absurd rfl hb)
    (Nat.zero_add _)

/-- Three arrays joined along the second axis: a column in the second block reads the second array. -/
theorem cat3_second {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin B)
    (hk : A + k.val < N) :
    concatenate ⟨2, ![E, N]⟩ 1 [⟨⟨2, ![E, A]⟩, x₁⟩, ⟨⟨2, ![E, B]⟩, x₂⟩, ⟨⟨2, ![E, C]⟩, x₃⟩] h (ix2 e ⟨A + k.val, hk⟩)
      = x₂ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 1 (show (1 : Nat) < 3 by omega) ⟨2, ![E, B]⟩ x₂ rfl rfl A (Nat.add_zero A) (ix2 e k)
    (fun b hb => by
      match b with
      | ⟨0, _⟩ => rfl
      | ⟨1, _⟩ => exact absurd rfl hb)
    rfl

/-- Three arrays joined along the second axis: a column in the third block reads the third array. -/
theorem cat3_third {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin C)
    (hk : A + B + k.val < N) :
    concatenate ⟨2, ![E, N]⟩ 1 [⟨⟨2, ![E, A]⟩, x₁⟩, ⟨⟨2, ![E, B]⟩, x₂⟩, ⟨⟨2, ![E, C]⟩, x₃⟩] h
        (ix2 e ⟨A + B + k.val, hk⟩)
      = x₃ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 2 (show (2 : Nat) < 3 by omega) ⟨2, ![E, C]⟩ x₃ rfl rfl (A + B) (show A + (B + 0) = A + B from rfl) (ix2 e k)
    (fun b hb => by
      match b with
      | ⟨0, _⟩ => rfl
      | ⟨1, _⟩ => exact absurd rfl hb)
    rfl

end Cat

end Cert.ReferenceIdeal.Stages
-- ==== Proof.HostPrep.lean ====
/-
  The operands the host prepares before the kernel is launched, read at an index.

  Before the launch the host transposes `W` and `U`, puts `U` and `V` side by side in one matrix, and reshapes the vector
  `v` and the column `w1` to rows (the changes of float format are the identity on the extended reals).  Read at a row and a
  column, each prepared operand is an entry of the argument it was made from.
-/
import proofs.«116866_j39058432590135_2_alg».proof.Proof.Gen.KernelIdeal.Frame
import proofs.«116866_j39058432590135_2_alg».proof.Proof.LibConcat2
import proofs.«116866_j39058432590135_2_alg».proof.Proof.LibSplitConcat
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal

noncomputable section

namespace Cert.KernelIdeal.Prepared

open Cert.KernelIdeal Cert.KernelIdeal.Gen Idealize.ShloMosaic Idealize.ShloMosaic.TcCoe Idealize.SL.Sem
open Idealize.ShloMosaic.StableHlo Idealize.ShloMosaic.ValueIdx Cert.HostLine

/-- A column `[a, 1]` reshaped to the row `[1, a]` reads, at `(0, k)`, the column at `(k, 0)`: both sit at row-major
    position `k`. -/
theorem column_as_row_apply {α : Type} {a : ℕ} (x : (⟨2, ![a, 1]⟩ : Shape).Idx → α)
    (h : (⟨2, ![a, 1]⟩ : Shape).ShapeCasts ⟨2, ![1, a]⟩) (k : Fin a) :
    shapeCast ⟨2, ![1, a]⟩ x h (ix2 (0 : Fin 1) k) = x (ix2 k (0 : Fin 1)) :=
  shapeCast_apply x h _ _ (by
    rw [Shape.rowMajor_val_two, Shape.rowMajor_val_two]
    show k.val * 1 + 0 = 0 * a + k.val
    rw [Nat.mul_one, Nat.add_zero, Nat.zero_mul, Nat.zero_add])

variable (m : (ℓ : Loc nD τ sig) → Buf (Elt Ideal) ℓ)

/-- `W` transposed: entry `(j, d)` is `W` at `(d, j)`. -/
theorem wt_at (c : Dev nD) (j d : Fin 2048) :
    V m c main_v1 (ix2 j d) = m ((c : Thread nD τ).loc main_arg1) (ix2 d j) := by
  have e : @Eq (S2048x2048.Idx → EReal) (V m c main_v1)
      (truncf (F := Ideal) .bf16 (transpose S2048x2048 [1, 0] (m ((c : Thread nD τ).loc main_arg1)) transposes_S2048x2048_S2048x2048_1_0)
          bitsLt_bf16_f32) := by
    dsimp only [Gen.V, Gen.hostOps0]
    host_line
  exact (congrFun e (ix2 j d)).trans
    (transpose_ix2_apply (m ((c : Thread nD τ).loc main_arg1)) transposes_S2048x2048_S2048x2048_1_0 j d)

/-- `U` and `V` side by side, as one function of the two arguments. -/
theorem uv_eq (c : Dev nD) :
    @Eq (S2048x256.Idx → EReal) (V m c main_v3)
      (truncf (F := Ideal) .bf16 (concatenate S2048x256 1 [⟨S2048x128, m ((c : Thread nD τ).loc main_arg2)⟩, ⟨S2048x128, m ((c : Thread nD τ).loc main_arg3)⟩]
          concatenates_S2048x128_S2048x128_S2048x256_d1) bitsLt_bf16_f32) := by
  dsimp only [Gen.V, Gen.hostOps0]
  host_line

/-- The left 128 columns of the wide matrix are `U`. -/
theorem uv_left_at (c : Dev nD) (j : Fin 2048) (k : Fin 128) :
    V m c main_v3 (ix2 j (⟨k.val, by omega⟩ : Fin 256)) = m ((c : Thread nD τ).loc main_arg2) (ix2 j k) :=
  (congrFun (uv_eq m c) (ix2 j (⟨k.val, by omega⟩ : Fin 256))).trans
    (Cert.ReferenceIdeal.Stages.cat2_left (m ((c : Thread nD τ).loc main_arg2)) (m ((c : Thread nD τ).loc main_arg3))
      concatenates_S2048x128_S2048x128_S2048x256_d1 j k (by omega))

/-- The right 128 columns of the wide matrix are `V`. -/
theorem uv_right_at (c : Dev nD) (j : Fin 2048) (k : Fin 128) :
    V m c main_v3 (ix2 j (⟨128 + k.val, by omega⟩ : Fin 256)) = m ((c : Thread nD τ).loc main_arg3) (ix2 j k) :=
  (congrFun (uv_eq m c) (ix2 j (⟨128 + k.val, by omega⟩ : Fin 256))).trans
    (Cert.ReferenceIdeal.Stages.cat2_right (m ((c : Thread nD τ).loc main_arg2)) (m ((c : Thread nD τ).loc main_arg3))
      concatenates_S2048x128_S2048x128_S2048x256_d1 j k (by omega))

/-- `U` transposed: entry `(k, d)` is `U` at `(d, k)`. -/
theorem ut_at (c : Dev nD) (k : Fin 128) (d : Fin 2048) :
    V m c main_v5 (ix2 k d) = m ((c : Thread nD τ).loc main_arg2) (ix2 d k) := by
  have e : @Eq (S128x2048.Idx → EReal) (V m c main_v5)
      (truncf (F := Ideal) .bf16 (transpose S128x2048 [1, 0] (m ((c : Thread nD τ).loc main_arg2)) transposes_S2048x128_S128x2048_1_0)
          bitsLt_bf16_f32) := by
    dsimp only [Gen.V, Gen.hostOps0]
    host_line
  exact (congrFun e (ix2 k d)).trans
    (transpose_ix2_apply (m ((c : Thread nD τ).loc main_arg2)) transposes_S2048x128_S128x2048_1_0 k d)

/-- `lam` in the narrower format: the same entries. -/
theorem lam_at (c : Dev nD) (e : Fin 8) (k : Fin 128) :
    V m c main_v6 (ix2 e k) = m ((c : Thread nD τ).loc main_arg4) (ix2 e k) := by
  have h : @Eq (S8x128.Idx → EReal) (V m c main_v6)
      (truncf (F := Ideal) (s := S8x128) (φ := .f32) .bf16 (m ((c : Thread nD τ).loc main_arg4)) bitsLt_bf16_f32) := by
    dsimp only [Gen.V, Gen.hostOps0]
    host_line
  exact congrFun h (ix2 e k)

/-- `v` as a row. -/
theorem vrow_at (c : Dev nD) (d : Fin 2048) :
    V m c main_v7 (ix2 (0 : Fin 1) d) = m ((c : Thread nD τ).loc main_arg5) (ix1 d) := by
  have h : @Eq (S1x2048.Idx → EReal) (V m c main_v7)
      (shapeCast S1x2048 (m ((c : Thread nD τ).loc main_arg5)) shapeCasts_S2048_S1x2048) := by
    dsimp only [Gen.V, Gen.hostOps0]
    host_line
    rfl
  exact (congrFun h (ix2 (0 : Fin 1) d)).trans
    (shapeCast_a_1a_apply (m ((c : Thread nD τ).loc main_arg5)) shapeCasts_S2048_S1x2048 (0 : Fin 1) d)

/-- The column `w1` as a row: both orders walk the 128 entries in the same sequence. -/
theorem w1row_at (c : Dev nD) (k : Fin 128) :
    V m c main_v8 (ix2 (0 : Fin 1) k) = m ((c : Thread nD τ).loc main_arg6) (ix2 k (0 : Fin 1)) := by
  have h : @Eq (S1x128.Idx → EReal) (V m c main_v8)
      (shapeCast S1x128 (m ((c : Thread nD τ).loc main_arg6)) shapeCasts_S128x1_S1x128) := by
    dsimp only [Gen.V, Gen.hostOps0]
    host_line
    rfl
  exact (congrFun h (ix2 (0 : Fin 1) k)).trans
    (column_as_row_apply (m ((c : Thread nD τ).loc main_arg6)) shapeCasts_S128x1_S1x128 k)

end Cert.KernelIdeal.Prepared

end
-- ==== Proof.BlocksToArray.lean ====
/-
  From the blocks to the whole array.

  The grid has 64 points; point `t` is handed rows `256 t … 256 t + 255` of `x` and the whole of every prepared operand, and
  writes back rows `256 t … 256 t + 255` of the result.  By the row-by-row reading of the body, what point `t` writes back
  is that block of rows of the row function applied to the arguments.  The 64 blocks of rows cover the result (row `n` is
  in the block of point `n / 256`), so the result array ends holding the row function of every row of `x`.
-/
import proofs.«116866_j39058432590135_2_alg».proof.Proof.Gen.KernelIdeal.Value
import proofs.«116866_j39058432590135_2_alg».proof.Proof.BlockRows
import proofs.«116866_j39058432590135_2_alg».proof.Proof.HostPrep

set_option maxRecDepth 16384

noncomputable section

namespace Cert.KernelIdeal.Whole

open Cert.KernelIdeal Cert.KernelIdeal.Gen Cert.GatedRow Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The row function applied to the argument arrays of core `c`. -/
abbrev whole (c : Dev nD) : S16384x2048.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The index maps over the grid: the block of rows of `x` and of the result move with the point, (every prepared operand's one block stays at the
    origin: `originW` below). -/
theorem idx_facts : ∀ t : Fin cfg0.N,
    win0_0.index t (0 : Fin 2) = t.val ∧ win0_0.index t (1 : Fin 2) = 0
    ∧ win0_8.index t (0 : Fin 2) = t.val ∧ win0_8.index t (1 : Fin 2) = 0 :=
  (by decide +kernel : ∀ t : Fin grid0.N, _)

/-- Row `r` of the block of `x` at point `t` is row `256 t + r` of `x`. -/
theorem rows_at (c : Dev nD) (t : Fin cfg0.N) (r : Fin 256) (j : Fin 2048) (n : Fin 16384) (hn : n.val = t.val * 256 + r.val) :
    iblk m c 0 t (ix2 r j) = m ((c : Thread nD τ).loc main_arg0) (ix2 n j) := by
  obtain ⟨h0, h1, -, -⟩ := idx_facts t
  rw [← V_main_arg0 m c]
  show V m c main_arg0 (((cfg0.win 0).blk t).view.emb (ix2 r j)) = V m c main_arg0 (ix2 n j)
  refine congrArg (V m c main_arg0) (funext fun a => Fin.ext ?_)
  match a with
  | ⟨0, _⟩ => show win0_0.index t (0 : Fin 2) * 256 + 1 * r.val = n.val; omega
  | ⟨1, _⟩ => show win0_0.index t (1 : Fin 2) * 2048 + 1 * j.val = j.val; omega

/-- Window 1's block is its whole array at every point. -/
theorem origin1 : ∀ t : Fin cfg0.N, win0_1.index t (0 : Fin 2) = 0 ∧ win0_1.index t (1 : Fin 2) = 0 :=
  (by decide +kernel : ∀ t : Fin grid0.N, _)
theorem whole1 (c : Dev nD) (t : Fin cfg0.N) (y : S2048x2048.Idx) : iblk m c 1 t y = V m c main_v1 y := by
  obtain ⟨h0, h1⟩ := origin1 t
  show V m c main_v1 (((cfg0.win 1).blk t).view.emb y) = V m c main_v1 y
  refine congrArg (V m c main_v1) (funext fun a => Fin.ext ?_)
  match a with
  | ⟨0, _⟩ => show win0_1.index t (0 : Fin 2) * 2048 + 1 * (y 0).val = (y 0).val; omega
  | ⟨1, _⟩ => show win0_1.index t (1 : Fin 2) * 2048 + 1 * (y 1).val = (y 1).val; omega

/-- Window 2's block is its whole array at every point. -/
theorem origin2 : ∀ t : Fin cfg0.N, win0_2.index t (0 : Fin 2) = 0 ∧ win0_2.index t (1 : Fin 2) = 0 :=
  (by decide +kernel : ∀ t : Fin grid0.N, _)
theorem whole2 (c : Dev nD) (t : Fin cfg0.N) (y : S2048x256.Idx) : iblk m c 2 t y = V m c main_v3 y := by
  obtain ⟨h0, h1⟩ := origin2 t
  show V m c main_v3 (((cfg0.win 2).blk t).view.emb y) = V m c main_v3 y
  refine congrArg (V m c main_v3) (funext fun a => Fin.ext ?_)
  match a with
  | ⟨0, _⟩ => show win0_2.index t (0 : Fin 2) * 2048 + 1 * (y 0).val = (y 0).val; omega
  | ⟨1, _⟩ => show win0_2.index t (1 : Fin 2) * 256 + 1 * (y 1).val = (y 1).val; omega

/-- Window 3's block is its whole array at every point. -/
theorem origin3 : ∀ t : Fin cfg0.N, win0_3.index t (0 : Fin 2) = 0 ∧ win0_3.index t (1 : Fin 2) = 0 :=
  (by decide +kernel : ∀ t : Fin grid0.N, _)
theorem whole3 (c : Dev nD) (t : Fin cfg0.N) (y : S128x2048.Idx) : iblk m c 3 t y = V m c main_v5 y := by
  obtain ⟨h0, h1⟩ := origin3 t
  show V m c main_v5 (((cfg0.win 3).blk t).view.emb y) = V m c main_v5 y
  refine congrArg (V m c main_v5) (funext fun a => Fin.ext ?_)
  match a with
  | ⟨0, _⟩ => show win0_3.index t (0 : Fin 2) * 128 + 1 * (y 0).val = (y 0).val; omega
  | ⟨1, _⟩ => show win0_3.index t (1 : Fin 2) * 2048 + 1 * (y 1).val = (y 1).val; omega

/-- Window 4's block is its whole array at every point. -/
theorem origin4 : ∀ t : Fin cfg0.N, win0_4.index t (0 : Fin 2) = 0 ∧ win0_4.index t (1 : Fin 2) = 0 :=
  (by decide +kernel : ∀ t : Fin grid0.N, _)
theorem whole4 (c : Dev nD) (t : Fin cfg0.N) (y : S8x128.Idx) : iblk m c 4 t y = V m c main_v6 y := by
  obtain ⟨h0, h1⟩ := origin4 t
  show V m c main_v6 (((cfg0.win 4).blk t).view.emb y) = V m c main_v6 y
  refine congrArg (V m c main_v6) (funext fun a => Fin.ext ?_)
  match a with
  | ⟨0, _⟩ => show win0_4.index t (0 : Fin 2) * 8 + 1 * (y 0).val = (y 0).val; omega
  | ⟨1, _⟩ => show win0_4.index t (1 : Fin 2) * 128 + 1 * (y 1).val = (y 1).val; omega

/-- Window 5's block is its whole array at every point. -/
theorem origin5 : ∀ t : Fin cfg0.N, win0_5.index t (0 : Fin 2) = 0 ∧ win0_5.index t (1 : Fin 2) = 0 :=
  (by decide +kernel : ∀ t : Fin grid0.N, _)
theorem whole5 (c : Dev nD) (t : Fin cfg0.N) (y : S1x2048.Idx) : iblk m c 5 t y = V m c main_v7 y := by
  obtain ⟨h0, h1⟩ := origin5 t
  show V m c main_v7 (((cfg0.win 5).blk t).view.emb y) = V m c main_v7 y
  refine congrArg (V m c main_v7) (funext fun a => Fin.ext ?_)
  match a with
  | ⟨0, _⟩ => show win0_5.index t (0 : Fin 2) * 1 + 1 * (y 0).val = (y 0).val; omega
  | ⟨1, _⟩ => show win0_5.index t (1 : Fin 2) * 2048 + 1 * (y 1).val = (y 1).val; omega

/-- Window 6's block is its whole array at every point. -/
theorem origin6 : ∀ t : Fin cfg0.N, win0_6.index t (0 : Fin 2) = 0 ∧ win0_6.index t (1 : Fin 2) = 0 :=
  (by decide +kernel : ∀ t : Fin grid0.N, _)
theorem whole6 (c : Dev nD) (t : Fin cfg0.N) (y : S1x128.Idx) : iblk m c 6 t y = V m c main_v8 y := by
  obtain ⟨h0, h1⟩ := origin6 t
  show V m c main_v8 (((cfg0.win 6).blk t).view.emb y) = V m c main_v8 y
  refine congrArg (V m c main_v8) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is its whole array at every point. -/
theorem origin7 : ∀ t : Fin cfg0.N, win0_7.index t (0 : Fin 2) = 0 ∧ win0_7.index t (1 : Fin 2) = 0 :=
  (by decide +kernel : ∀ t : Fin grid0.N, _)
theorem whole7 (c : Dev nD) (t : Fin cfg0.N) (y : S1x8.Idx) : iblk m c 7 t y = V m c main_arg7 y := by
  obtain ⟨h0, h1⟩ := origin7 t
  show V m c main_arg7 (((cfg0.win 7).blk t).view.emb y) = V m c main_arg7 y
  refine congrArg (V m c main_arg7) (funext fun a => Fin.ext ?_)
  match a with
  | ⟨0, _⟩ => show win0_7.index t (0 : Fin 2) * 1 + 1 * (y 0).val = (y 0).val; omega
  | ⟨1, _⟩ => show win0_7.index t (1 : Fin 2) * 8 + 1 * (y 1).val = (y 1).val; omega

/-- WHAT POINT `t` WRITES BACK is its block of rows of the row function of the arguments. -/
theorem flushed_eq (c : Dev nD) (t : Fin cfg0.N) :
    (dats m 0 c).flushed 8 t = ((cfg0.win 8).blk t).view.read (Elt Ideal) (whole m c) := by
  rw [Cert.KernelIdeal.Value.flushed8]
  unfold out0_8
  rw [View.canon_unit_zero offsets_zero]
  simp only [View.ld_unit_zero (S := S256x2048) offsets_zero, View.ld_unit_zero (S := S2048x2048) offsets_zero,
    View.ld_unit_zero (S := S2048x256) offsets_zero, View.ld_unit_zero (S := S128x2048) offsets_zero,
    View.ld_unit_zero (S := S8x128) offsets_zero, View.ld_unit_zero (S := S1x2048) offsets_zero,
    View.ld_unit_zero (S := S1x128) offsets_zero, View.ld_unit_zero (S := S1x8) offsets_zero]
  funext y
  obtain ⟨r, d, rfl⟩ : ∃ (r : Fin 256) (d : Fin 2048), y = ix2 r d := ⟨y 0, y 1, eq_ix2 y⟩
  obtain ⟨-, -, h80, h81⟩ := idx_facts t
  have hN : cfg0.N = 64 := N_0
  have ht : t.val < 64 := hN ▸ t.isLt
  have hemb : ((cfg0.win 8).blk t).view.emb (ix2 r d) = ix2 (⟨t.val * 256 + r.val, by omega⟩ : Fin 16384) d :=
    funext fun a => Fin.ext (by
      match a with
      | ⟨0, _⟩ => show win0_8.index t (0 : Fin 2) * 256 + 1 * r.val = t.val * 256 + r.val; omega
      | ⟨1, _⟩ => show win0_8.index t (1 : Fin 2) * 2048 + 1 * d.val = d.val; omega)
  show k0_pay1 (F := Ideal) (k0_pay2 (iblk m c 0 t)) (k0_pay3 (iblk m c 1 t)) (k0_pay4 (iblk m c 3 t)) (k0_pay5 (iblk m c 4 t))
      (k0_pay6 (iblk m c 5 t)) (k0_pay8 (iblk m c 0 t) (iblk m c 2 t))
      (k0_pay9 (iblk m c 0 t) (iblk m c 2 t) (iblk m c 6 t) (iblk m c 7 t)) (constant S256x128 .f32 0x00000000#32) (ix2 r d)
    = whole m c (((cfg0.win 8).blk t).view.emb (ix2 r d))
  rw [hemb]
  refine (Cert.BlockRows.block_row (iblk m c 0 t) (iblk m c 1 t) (iblk m c 2 t) (iblk m c 3 t) (iblk m c 4 t) (iblk m c 5 t)
    (iblk m c 6 t) (iblk m c 7 t)
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))
    (fun j d => (whole1 m c t (ix2 j d)).trans (Prepared.wt_at m c j d))
    (fun j k => (whole2 m c t _).trans (Prepared.uv_left_at m c j k))
    (fun j k => (whole2 m c t _).trans (Prepared.uv_right_at m c j k))
    (fun k d => (whole3 m c t (ix2 k d)).trans (Prepared.ut_at m c k d))
    (fun e k => (whole4 m c t (ix2 e k)).trans (Prepared.lam_at m c e k))
    (fun d => (whole5 m c t (ix2 (0 : Fin 1) d)).trans (Prepared.vrow_at m c d))
    (fun k => (whole6 m c t (ix2 (0 : Fin 1) k)).trans (Prepared.w1row_at m c k))
    (fun e => (whole7 m c t (ix2 (0 : Fin 1) e)).trans (congrFun (V_main_arg7 m c) (ix2 (0 : Fin 1) e)))
    r d).trans ?_
  have hrow : (fun j => iblk m c 0 t (ix2 r j))
      = fun j => m ((c : Thread nD τ).loc main_arg0) (ix2 (⟨t.val * 256 + r.val, by omega⟩ : Fin 16384) j) :=
    funext fun j => rows_at m c t r j _ rfl
  rw [hrow]
  rfl

/-- An index of the result is in point `t`'s block iff each coordinate is in the block's range on its axis. -/
theorem mem_blk (t : Fin cfg0.N) (i : S16384x2048.Idx) :
    i ∈ ((cfg0.win 8).blk t).view.set ↔ ∀ a : Fin 2, win0_8.index t a * S256x2048.size a ≤ (i a).val
      ∧ (i a).val < win0_8.index t a * S256x2048.size a + S256x2048.size a := by
  show i ∈ ((View.whole main_v9).slice (win0_8.rect t)).set ↔ _
  rw [View.set_slice_whole, Rect.mem_set_unit]
  exact Iff.rfl

/-- Every index of the result is in some point's block: row `n` in that of point `n / 256`. -/
theorem cover (i : S16384x2048.Idx) :
    ∃ t : Fin cfg0.N, (cfg0.win 8).flush t = true ∧ i ∈ ((cfg0.win 8).blk t).view.set := by
  have hi0 : (i 0).val < 16384 := (i 0).isLt
  have hi1 : (i 1).val < 2048 := (i 1).isLt
  have hN : cfg0.N = 64 := N_0
  have hlt : (i 0).val / 256 < cfg0.N := by rw [hN]; omega
  obtain ⟨-, -, h80, h81⟩ := idx_facts ⟨(i 0).val / 256, hlt⟩
  refine ⟨⟨(i 0).val / 256, hlt⟩, flush0_8 _, ?_⟩
  rw [mem_blk]
  intro a
  match a with
  | ⟨0, _⟩ =>
    show win0_8.index ⟨(i 0).val / 256, hlt⟩ (0 : Fin 2) * 256 ≤ (i 0).val
      ∧ (i 0).val < win0_8.index ⟨(i 0).val / 256, hlt⟩ (0 : Fin 2) * 256 + 256
    have e : win0_8.index ⟨(i 0).val / 256, hlt⟩ (0 : Fin 2) = (i 0).val / 256 := h80
    omega
  | ⟨1, _⟩ =>
    show win0_8.index ⟨(i 0).val / 256, hlt⟩ (1 : Fin 2) * 2048 ≤ (i 1).val
      ∧ (i 1).val < win0_8.index ⟨(i 0).val / 256, hlt⟩ (1 : Fin 2) * 2048 + 2048
    omega

/-- THE RESULT ARRAY after the run is the row function of every row of `x`. -/
theorem final (c : Dev nD) : (dats m 0 c).arrAt 8 cfg0.N = whole m c :=
  (dats m 0 c).arrAt_eq_of_cover 8 (whole m c) (fun t _ => flushed_eq m c t) cover

/-- The kernel's run, with the result array named: the row function of the arguments, which end unchanged. -/
theorem run : θ_run defs (onTc (τ := τ) (main (F := Ideal))) ⟨m, fun _ => 0, ρ⟩ fun r => ∀ c : Dev nD,
      r.2.mem ((c : Thread nD τ).loc main_v9) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Whole

end
-- ==== Proof.RefRows.lean ====
/-
  The reference computes the row function.

  The reference program is a chain of whole-array operations.  Read at an index, each product of matrices is a sum over
  the contracted coordinate, each broadcast reads its operand at the kept coordinates, and the reduction of the eight
  logits by the maximum is a fold of `max` over the eight columns of the row.  Going through the chain stage by stage,
  row `n` of each intermediate array depends on row `n` of `x` only, and is the corresponding stage of the row function:
  the projections on `U`, the logits, their maximum, the exponentials and their sum, the softmax weights, the mixed
  factors, the projections on `V`, and finally the two images added and scaled.
-/
import proofs.«116866_j39058432590135_2_alg».proof.Proof.Gen.ReferenceIdeal.Read
import proofs.«116866_j39058432590135_2_alg».proof.Proof.GatedRow

noncomputable section

open scoped BigOperators

namespace Cert.ReferenceRows

open Cert.ReferenceIdeal Cert.ReferenceIdeal.Gen Cert.ReferenceIdeal.Read Cert.GatedRow Idealize.ShloMosaic Idealize.ShloMosaic.ValueIdx

local macro "ix_eq" : tactic => `(tactic| (funext a; match a with | ⟨0, _⟩ => rfl | ⟨1, _⟩ => rfl))

variable (x0 : (⟨S16384x2048, .f32⟩ : BufTy).Contents (Elt Ideal)) (x1 : (⟨S2048x2048, .f32⟩ : BufTy).Contents (Elt Ideal))
  (x2 x3 : (⟨S2048x128, .f32⟩ : BufTy).Contents (Elt Ideal)) (x4 : (⟨S8x128, .f32⟩ : BufTy).Contents (Elt Ideal))
  (x5 : (⟨S2048, .f32⟩ : BufTy).Contents (Elt Ideal)) (x6 : (⟨S128x1, .f32⟩ : BufTy).Contents (Elt Ideal))
  (x7 : (⟨S1x8, .f32⟩ : BufTy).Contents (Elt Ideal))

/-- Row `n` of `x · U` at column `k` is the row's projection on column `k` of `U`. -/
theorem v0_at (n : Fin 16384) (k : Fin 128) :
    val_main_v0 (F := Ideal) x0 x2 (ix2 n k) = proj (fun j => x0 (ix2 n j)) x2 k := by
  rw [val_main_v0_apply]
  unfold proj
  refine Finset.sum_congr rfl fun j _ => ?_
  have el : lidx_main_v0 (ix2 n k) j = ix2 n j := by ix_eq
  have er : ridx_main_v0 (ix2 n k) j = ix2 j k := by ix_eq
  rw [el, er]

/-- The same for `x · V`. -/
theorem v16_at (n : Fin 16384) (k : Fin 128) :
    val_main_v16 (F := Ideal) x0 x3 (ix2 n k) = proj (fun j => x0 (ix2 n j)) x3 k := by
  rw [val_main_v16_apply]
  unfold proj
  refine Finset.sum_congr rfl fun j _ => ?_
  have el : lidx_main_v16 (ix2 n k) j = ix2 n j := by ix_eq
  have er : ridx_main_v16 (ix2 n k) j = ix2 j k := by ix_eq
  rw [el, er]

/-- The projections weighted by the column `w1` and summed. -/
theorem v1_at (n : Fin 16384) :
    val_main_v1 (F := Ideal) x0 x2 x6 (ix2 n (0 : Fin 1))
      = ∑ k : Fin 128, proj (fun j => x0 (ix2 n j)) x2 k * x6 (ix2 k (0 : Fin 1)) := by
  rw [val_main_v1_apply]
  refine Finset.sum_congr rfl fun k _ => ?_
  have el : lidx_main_v1 (ix2 n (0 : Fin 1)) k = ix2 n k := by ix_eq
  have er : ridx_main_v1 (ix2 n (0 : Fin 1)) k = ix2 k (0 : Fin 1) := by ix_eq
  rw [el, er, v0_at]

/-- The eight logits of row `n`: a product over a contracted axis of extent one is a single product. -/
theorem v2_at (n : Fin 16384) (e : Fin 8) :
    val_main_v2 (F := Ideal) x0 x2 x6 x7 (ix2 n e) = logit (fun j => x0 (ix2 n j)) x2 x6 x7 e := by
  rw [val_main_v2_apply, Fin.sum_univ_one]
  have el : lidx_main_v2 (ix2 n e) (0 : Fin 1) = ix2 n (0 : Fin 1) := by ix_eq
  have er : ridx_main_v2 (ix2 n e) (0 : Fin 1) = ix2 (0 : Fin 1) e := by ix_eq
  rw [el, er, v1_at]
  rfl

/-- The host's reduction of an `[16384, 8]` array along its rows by the maximum, from minus infinity, is at row `n` the fold
    of `max` over the row's eight entries. -/
theorem hostRowMax (y : FVec Ideal S16384x8 .f32) (n : Fin 16384) :
    Host.reduce FloatOps.maximumf y (val_main_cst (F := Ideal)) reducesTo_S16384x8_S16384_d1 h_S_ (ix1 n)
      = (Finset.univ : Finset (Fin 8)).fold max negInf (fun e => y (ix2 n e)) := by
  have h : S16384x8.Reduces [1] S16384 := by decide
  refine (Host.reduce_eq_fold_single FloatOps.maximumf y (val_main_cst (F := Ideal)) reducesTo_S16384x8_S16384_d1 h h_S_ (ix1 n)).trans ?_
  have hf : (fun e => y (h.lift (ix1 n) e)) = fun e : Fin 8 => y (ix2 n e) :=
    funext fun e => congrArg y (funext fun c => Fin.ext (by
      match c with
      | ⟨0, _⟩ => rfl
      | ⟨1, _⟩ => rfl))
  show Finset.fold max negInf (fun e => y (h.lift (ix1 n) e)) Finset.univ = _
  rw [hf]
  rfl

/-- The reduction of row `n`'s logits by the maximum is the fold of `max` over the row's eight columns. -/
theorem v3_at (n : Fin 16384) :
    val_main_v3 (F := Ideal) x0 x2 x6 x7 (ix1 n)
      = (Finset.univ : Finset (Fin 8)).fold max negInf (logit (fun j => x0 (ix2 n j)) x2 x6 x7) := by
  unfold val_main_v3
  exact (hostRowMax (val_main_v2 (F := Ideal) x0 x2 x6 x7) n).trans
    (congrArg (fun f => Finset.fold max negInf f Finset.univ) (funext fun e => v2_at x0 x2 x6 x7 n e))

/-- Compared once more with minus infinity: the row's maximum. -/
theorem v5_at (n : Fin 16384) :
    val_main_v5 (F := Ideal) x0 x2 x6 x7 (ix1 n) = rowMax (logit (fun j => x0 (ix2 n j)) x2 x6 x7) := by
  rw [val_main_v5_apply, val_main_v4_apply, val_main_cst_0_apply, v3_at]
  rfl

/-- The maximum broadcast back over the row's eight columns. -/
theorem v7_at (n : Fin 16384) (e : Fin 8) :
    val_main_v7 (F := Ideal) x0 x2 x6 x7 (ix2 n e) = rowMax (logit (fun j => x0 (ix2 n j)) x2 x6 x7) := by
  rw [val_main_v7_apply, val_main_v6_apply]
  have hi : idx_main_v6 (idx_main_v7 (ix2 n e)) = ix1 n := by
    funext a
    match a with
    | ⟨0, _⟩ => rfl
  rw [hi, v5_at]

/-- The exponential of a logit shifted by the row's maximum. -/
theorem v9_at (n : Fin 16384) (e : Fin 8) :
    val_main_v9 (F := Ideal) x0 x2 x6 x7 (ix2 n e)
      = Ideal.exp (logit (fun j => x0 (ix2 n j)) x2 x6 x7 e - rowMax (logit (fun j => x0 (ix2 n j)) x2 x6 x7)) := by
  rw [val_main_v9_apply, val_main_v8_apply, v2_at, v7_at]
  rfl

/-- The sum of the row's eight exponentials (the sum starts from zero). -/
theorem v10_at (n : Fin 16384) :
    val_main_v10 (F := Ideal) x0 x2 x6 x7 (ix1 n)
      = ∑ e : Fin 8, Ideal.exp (logit (fun j => x0 (ix2 n j)) x2 x6 x7 e - rowMax (logit (fun j => x0 (ix2 n j)) x2 x6 x7)) := by
  rw [val_main_v10_apply, val_main_cst_1_apply]
  show Ideal.ofBits .f32 0x00000000#32 + _ = _
  rw [Ideal.ofBits_zero_f32, zero_add]
  refine Finset.sum_congr rfl fun e _ => ?_
  have hi : idx_main_v10 (ix1 n) e = ix2 n e := by ix_eq
  rw [hi, v9_at]

/-- That sum broadcast back over the row's eight columns. -/
theorem v12_at (n : Fin 16384) (e : Fin 8) :
    val_main_v12 (F := Ideal) x0 x2 x6 x7 (ix2 n e)
      = ∑ e' : Fin 8, Ideal.exp (logit (fun j => x0 (ix2 n j)) x2 x6 x7 e' - rowMax (logit (fun j => x0 (ix2 n j)) x2 x6 x7)) := by
  rw [val_main_v12_apply, val_main_v11_apply]
  have hi : idx_main_v11 (idx_main_v12 (ix2 n e)) = ix1 n := by
    funext a
    match a with
    | ⟨0, _⟩ => rfl
  rw [hi, v10_at]

/-- The softmax weights of row `n`. -/
theorem v13_at (n : Fin 16384) (e : Fin 8) :
    val_main_v13 (F := Ideal) x0 x2 x6 x7 (ix2 n e) = gate (logit (fun j => x0 (ix2 n j)) x2 x6 x7) e := by
  rw [val_main_v13_apply, v9_at, v12_at]
  rfl

/-- The weights mixing the rows of `lam`. -/
theorem v17_at (n : Fin 16384) (k : Fin 128) :
    val_main_v17 (F := Ideal) x0 x2 x4 x6 x7 (ix2 n k) = mix (gate (logit (fun j => x0 (ix2 n j)) x2 x6 x7)) x4 k := by
  rw [val_main_v17_apply]
  unfold mix
  refine Finset.sum_congr rfl fun e _ => ?_
  have el : lidx_main_v17 (ix2 n k) e = ix2 n e := by ix_eq
  have er : ridx_main_v17 (ix2 n k) e = ix2 e k := by ix_eq
  rw [el, er, v13_at]

/-- The projections on `V` times the mixed factors, sent back through the transposed `U`. -/
theorem v20_at (n : Fin 16384) (d : Fin 2048) :
    val_main_v20 (F := Ideal) x0 x2 x3 x4 x6 x7 (ix2 n d)
      = ∑ k : Fin 128, (proj (fun j => x0 (ix2 n j)) x3 k * mix (gate (logit (fun j => x0 (ix2 n j)) x2 x6 x7)) x4 k) * x2 (ix2 d k) := by
  rw [val_main_v20_apply]
  refine Finset.sum_congr rfl fun k _ => ?_
  have el : lidx_main_v20 (ix2 n d) k = ix2 n k := by ix_eq
  have er : ridx_main_v20 (ix2 n d) k = ix2 k d := by ix_eq
  have et : idx_main_v19 (ix2 k d) = ix2 d k := by ix_eq
  rw [el, er, val_main_v18_apply, v16_at, v17_at, val_main_v19_apply, et]
  rfl

/-- The row's image under the transposed `W`. -/
theorem v15_at (n : Fin 16384) (d : Fin 2048) :
    val_main_v15 (F := Ideal) x0 x1 (ix2 n d) = ∑ j : Fin 2048, x0 (ix2 n j) * x1 (ix2 d j) := by
  rw [val_main_v15_apply]
  refine Finset.sum_congr rfl fun j _ => ?_
  have el : lidx_main_v15 (ix2 n d) j = ix2 n j := by ix_eq
  have er : ridx_main_v15 (ix2 n d) j = ix2 j d := by ix_eq
  have et : idx_main_v14 (ix2 j d) = ix2 d j := by ix_eq
  rw [el, er, val_main_v14_apply, et]

/-- One plus `v`, broadcast down the rows. -/
theorem v25_at (n : Fin 16384) (d : Fin 2048) :
    val_main_v25 (F := Ideal) x5 (ix2 n d) = one + x5 (ix1 d) := by
  rw [val_main_v25_apply, val_main_v24_apply, val_main_v23_apply, val_main_v22_apply, val_main_cst_2_apply]
  have hi : idx_main_v24 (idx_main_v25 (ix2 n d)) = ix1 d := by
    funext a
    match a with
    | ⟨0, _⟩ => rfl
  rw [hi]
  rfl

/-- The reference's result is the row function applied to every row of `x`. -/
theorem reference_eq :
    val_main_v26 (F := Ideal) x0 x1 x2 x3 x4 x5 x6 x7 = result x0 x1 x2 x3 x4 x5 x6 x7 := by
  funext i
  obtain ⟨n, d, rfl⟩ : ∃ (n : Fin 16384) (d : Fin 2048), i = ix2 n d := ⟨i 0, i 1, eq_ix2 i⟩
  rw [val_main_v26_apply, val_main_v21_apply, v15_at, v20_at, v25_at]
  rfl

end Cert.ReferenceRows

end
-- ==== Proof.lean ====
/-
  The kernel and its reference compute one function of their eight arguments, on the extended reals.

  Both programs work on the rows of `x` independently.  A row is projected on the columns of `U`; the projections, weighted by
  `w1` and summed, give one number whose products with the eight entries of `w2` are the row's gating logits; a softmax of the
  logits mixes the eight rows of `lam` into 128 factors; the row's projections on the columns of `V`, multiplied by those
  factors, go back through `U` transposed and are added to the row's image under `W` transposed; the sum is scaled by one plus
  `v`, column by column (Proof/GatedRow.lean).

  The reference does this with whole-array operations, and each of them read at an index gives the corresponding stage of
  the row function (Proof/RefRows.lean).  The kernel prepares its operands on the host (`W` and `U` transposed, `U` and `V`
  side by side, `v` and `w1` as rows: Proof/HostPrep.lean), then runs over 64 blocks of 256 rows; within a block the
  projections on `U` and `V` come out of one wide matrix product as its left and right halves, and row `r` of what the body
  stores is the row function of row `r` of the block (Proof/BlockRows.lean); the 64 blocks of rows cover the result
  (Proof/BlocksToArray.lean).  The only differences between the two programs are the order of summation inside the matrix
  products, the tiling, and the changes of float format, none of which exists on the extended reals; no law of arithmetic
  beyond reading the same sums is used, so the finiteness of the inputs is never needed.

  The three frame claims are the generated frame runs; the idealized kernel is the kernel's own text read on the extended
  reals, so there is nothing to preserve.
-/
import proofs.«116866_j39058432590135_2_alg».proof.Defs
import proofs.«116866_j39058432590135_2_alg».proof.Proof.Gen.Kernel
import proofs.«116866_j39058432590135_2_alg».proof.Proof.Gen.Kernel.Skeleton
import proofs.«116866_j39058432590135_2_alg».proof.Proof.Gen.Kernel.Launch
import proofs.«116866_j39058432590135_2_alg».proof.Proof.Gen.Kernel.Points
import proofs.«116866_j39058432590135_2_alg».proof.Proof.Gen.Kernel.Frame
import proofs.«116866_j39058432590135_2_alg».proof.Proof.Gen.KernelIdeal
import proofs.«116866_j39058432590135_2_alg».proof.Proof.Gen.KernelIdeal.Skeleton
import proofs.«116866_j39058432590135_2_alg».proof.Proof.Gen.KernelIdeal.Launch
import proofs.«116866_j39058432590135_2_alg».proof.Proof.Gen.KernelIdeal.Points
import proofs.«116866_j39058432590135_2_alg».proof.Proof.Gen.KernelIdeal.Frame
import proofs.«116866_j39058432590135_2_alg».proof.Proof.Gen.ReferenceIdeal
import proofs.«116866_j39058432590135_2_alg».proof.Proof.Gen.Pre_finite_inputs
import proofs.«116866_j39058432590135_2_alg».proof.Proof.Gen.KernelIdeal.Value
import proofs.«116866_j39058432590135_2_alg».proof.Proof.Gen.ReferenceIdeal.Run
import proofs.«116866_j39058432590135_2_alg».proof.Proof.Gen.ReferenceIdeal.Read
import proofs.«116866_j39058432590135_2_alg».proof.Proof.BlocksToArray
import proofs.«116866_j39058432590135_2_alg».proof.Proof.RefRows
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories agreeing on the arguments both programs end with the row function of every row of `x` in their result. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v26_eq, Cert.ReferenceRows.reference_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
